-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096 : Shape := ⟨1, ![4096]⟩
abbrev S500000x128 : Shape := ⟨2, ![500000, 128]⟩
abbrev S500000 : Shape := ⟨1, ![500000]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_

variable [Facts]

def fn {F : FTy → Type} [FloatOps F] (main_arg0 : FVec F S4096x128 .f32) (main_arg1 : IVec S4096 32) (main_arg2 : IVec S4096 32) (main_arg3 : FVec F S500000x128 .f32) (main_arg4 : IVec S500000 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S500000x128 .f32 := Host.absf main_arg3
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  main_v8
-- ==== Kernel.lean ====
abbrev S4096x128 : Shape := ⟨2, ![4096, 128]⟩
abbrev S4096 : Shape := ⟨1, ![4096]⟩
abbrev S500000x128 : Shape := ⟨2, ![500000, 128]⟩
abbrev S500000 : Shape := ⟨1, ![500000]⟩
abbrev S_ : Shape := ⟨0, ![]⟩
abbrev S10000x128 : Shape := ⟨2, ![10000, 128]⟩
abbrev S500000x1 : Shape := ⟨2, ![500000, 1]⟩
abbrev S10000 : Shape := ⟨1, ![10000]⟩
abbrev S10000x1 : Shape := ⟨2, ![10000, 1]⟩
abbrev S10240x128 : Shape := ⟨2, ![10240, 128]⟩
abbrev S4096x10000 : Shape := ⟨2, ![4096, 10000]⟩
abbrev S2048x128 : Shape := ⟨2, ![2048, 128]⟩
abbrev S1280x128 : Shape := ⟨2, ![1280, 128]⟩
abbrev S2048x1280 : Shape := ⟨2, ![2048, 1280]⟩

abbrev nBuf : Space → Nat
  | .hbm => 35
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S4096, .i32⟩
  | .hbm, ⟨3, _⟩ => ⟨S500000x128, .f32⟩
  | .hbm, ⟨4, _⟩ => ⟨S500000, .i32⟩
  | .hbm, ⟨5, _⟩ => ⟨S_, .f32⟩
  | .hbm, ⟨6, _⟩ => ⟨S10000x128, .f32⟩
  | .hbm, ⟨7, _⟩ => ⟨S500000x1, .i32⟩
  | .hbm, ⟨8, _⟩ => ⟨S10000x128, .f32⟩
  | .hbm, ⟨9, _⟩ => ⟨S_, .f32⟩
  | .hbm, ⟨10, _⟩ => ⟨S500000, .f32⟩
  | .hbm, ⟨11, _⟩ => ⟨S_, .f32⟩
  | .hbm, ⟨12, _⟩ => ⟨S10000, .f32⟩
  | .hbm, ⟨13, _⟩ => ⟨S500000x1, .i32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S10000x1, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000, .f32⟩
  | .hbm, ⟨24, _⟩ => ⟨S10000x1, .f32⟩
  | .hbm, ⟨25, _⟩ => ⟨S10000x1, .f32⟩
  | .hbm, ⟨26, _⟩ => ⟨S_, .f32⟩
  | .hbm, ⟨27, _⟩ => ⟨S10000x1, .f32⟩
  | .hbm, ⟨28, _⟩ => ⟨S10000x1, .f32⟩
  | .hbm, ⟨29, _⟩ => ⟨S10000x128, .f32⟩
  | .hbm, ⟨30, _⟩ => ⟨S10000x128, .f32⟩
  | .hbm, ⟨31, _⟩ => ⟨S_, .i32⟩
  | .hbm, ⟨32, _⟩ => ⟨S_, .f32⟩
  | .hbm, ⟨33, _⟩ => ⟨S10240x128, .f32⟩
  | .hbm, ⟨34, _⟩ => ⟨S4096x10000, .f32⟩
  | .local _ .vmem, ⟨0, _⟩ => ⟨S2048x128, .f32⟩
  | .local _ .vmem, ⟨1, _⟩ => ⟨S2048x128, .f32⟩
  | .local _ .vmem, ⟨2, _⟩ => ⟨S1280x128, .f32⟩
  | .local _ .vmem, ⟨3, _⟩ => ⟨S1280x128, .f32⟩
  | .local _ .vmem, ⟨4, _⟩ => ⟨S2048x1280, .f32⟩
  | .local _ .vmem, ⟨5, _⟩ => ⟨S2048x1280, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_call0_v2 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S10000x128 : S_.BroadcastsInDim S10000x128 (![] : Fin 0 → Fin S10000x128.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  reducesTo_S10000x128_S10000_d1 : S10000x128.ReducesTo [1] S10000
  h_S_ : 0 < S_.numel
  bcast_S_S10000x1 : S_.BroadcastsInDim S10000x1 (![] : Fin 0 → Fin S10000x1.rank)
  pads_S10000x128_S10240x128_02400_000 : S10000x128.Pads (![0, 0] : Fin 2 → Nat) ![240, 0] ![0, 0] S10240x128
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S2048x1280_S2048x1280_0_0 : ∀ a, (![0, 0] : Fin 2 → Nat) a + S2048x1280.size a ≤ S2048x1280.size a
  h_S2048x1280 : 0 < S2048x1280.numel
  scatter_S10000x128_S500000x1_S500000x128_1_0_0_1_wf : ScatterDims.WF S10000x128 S500000x1 S500000x128 [1] [0] [0] 1
  scatter_S10000_S500000x1_S500000_n_0_0_1_wf : ScatterDims.WF S10000 S500000x1 S500000 [] [0] [0] 1
  dot_S2048x128_S1280x128_S2048x1280_1_1_0_0_n_n_wf : DotDims.WF S2048x128 S1280x128 S2048x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S4096x128.size a
  hwx0_0 : ∀ i : grid0.Coords, EltTy.bits .f32 = 32 ∨ (Rect.block (s := S4096x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x128.size a ≤ S10240x128.size a
  hwx0_1 : ∀ i : grid0.Coords, EltTy.bits .f32 = 32 ∨ (Rect.block (s := S10240x128) S1280x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x1280.size a < S4096x10000.size a
  hwx0_2 : ∀ i : grid0.Coords, EltTy.bits .f32 = 32 ∨ (Rect.unit (s := S4096x10000) (fun a => cc0_transform_2 i a * S2048x1280.size a) (fun a => (Pipeline.Clip.of (cc0_transform_2 i a) (S2048x1280.size a) (S4096x10000.size a)).extent (S2048x1280.size a)) fun a => Pipeline.Clip.inb (Pipeline.Clip.ok_of (hstart0_2 i a))).WholeWords (EltTy.packing .f32)
  hwxs0_2 : ∀ i : grid0.Coords, EltTy.bits .f32 = 32 ∨ (Rect.unit (s := S2048x1280) (fun _ => 0) (fun a => (Pipeline.Clip.of (cc0_transform_2 i a) (S2048x1280.size a) (S4096x10000.size a)).extent (S2048x1280.size a)) fun a => (Nat.zero_add _).trans_le (Pipeline.Clip.extent_le (Pipeline.Clip.ok_of (hstart0_2 i a)))).WholeWords (EltTy.packing .f32)

variable [Facts₀]

def scatter_S10000x128_S500000x1_S500000x128_1_0_0_1 : ScatterDims S10000x128 S500000x1 S500000x128 where
  updateWindowDims := [1]
  insertedWindowDims := [0]
  scatterDimsToOperandDims := [0]
  indexVectorDim := 1
  wf := scatter_S10000x128_S500000x1_S500000x128_1_0_0_1_wf
def scatter_S10000_S500000x1_S500000_n_0_0_1 : ScatterDims S10000 S500000x1 S500000 where
  updateWindowDims := []
  insertedWindowDims := [0]
  scatterDimsToOperandDims := [0]
  indexVectorDim := 1
  wf := scatter_S10000_S500000x1_S500000_n_0_0_1_wf
def dot_S2048x128_S1280x128_S2048x1280_1_1_0_0_n_n : DotDims S2048x128 S1280x128 S2048x1280 where
  lhsContracting := [1]
  rhsContracting := [1]
  lhsNonContracting := [0]
  rhsNonContracting := [0]
  lhsBatch := []
  rhsBatch := []
  wf := dot_S2048x128_S1280x128_S2048x1280_1_1_0_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1280x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v18) S2048x1280.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096 : Shape := ⟨1, ![4096]⟩
abbrev S500000x128 : Shape := ⟨2, ![500000, 128]⟩
abbrev S500000 : Shape := ⟨1, ![500000]⟩
abbrev S_ : Shape := ⟨0, ![]⟩
abbrev S10000x128 : Shape := ⟨2, ![10000, 128]⟩
abbrev S500000x1 : Shape := ⟨2, ![500000, 1]⟩
abbrev S10000 : Shape := ⟨1, ![10000]⟩
abbrev S10000x1 : Shape := ⟨2, ![10000, 1]⟩
abbrev S128x10000 : Shape := ⟨2, ![128, 10000]⟩
abbrev S4096x10000 : Shape := ⟨2, ![4096, 10000]⟩

abbrev nBuf : Space → Nat
  | .hbm => 36
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S4096, .i32⟩
  | .hbm, ⟨3, _⟩ => ⟨S500000x128, .f32⟩
  | .hbm, ⟨4, _⟩ => ⟨S500000, .i32⟩
  | .hbm, ⟨5, _⟩ => ⟨S_, .f32⟩
  | .hbm, ⟨6, _⟩ => ⟨S10000x128, .f32⟩
  | .hbm, ⟨7, _⟩ => ⟨S500000x1, .i32⟩
  | .hbm, ⟨8, _⟩ => ⟨S10000x128, .f32⟩
  | .hbm, ⟨9, _⟩ => ⟨S_, .f32⟩
  | .hbm, ⟨10, _⟩ => ⟨S500000, .f32⟩
  | .hbm, ⟨11, _⟩ => ⟨S_, .f32⟩
  | .hbm, ⟨12, _⟩ => ⟨S10000, .f32⟩
  | .hbm, ⟨13, _⟩ => ⟨S500000x1, .i32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S10000x1, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000, .f32⟩
  | .hbm, ⟨24, _⟩ => ⟨S10000x1, .f32⟩
  | .hbm, ⟨25, _⟩ => ⟨S10000x1, .f32⟩
  | .hbm, ⟨26, _⟩ => ⟨S_, .f32⟩
  | .hbm, ⟨27, _⟩ => ⟨S10000x1, .f32⟩
  | .hbm, ⟨28, _⟩ => ⟨S10000x1, .f32⟩
  | .hbm, ⟨29, _⟩ => ⟨S10000x128, .f32⟩
  | .hbm, ⟨30, _⟩ => ⟨S10000x128, .f32⟩
  | .hbm, ⟨31, _⟩ => ⟨S128x10000, .f32⟩
  | .hbm, ⟨32, _⟩ => ⟨S4096x10000, .f32⟩
  | .hbm, ⟨33, _⟩ => ⟨S_, .f32⟩
  | .hbm, ⟨34, _⟩ => ⟨S4096x10000, .f32⟩
  | .hbm, ⟨35, _⟩ => ⟨S4096x10000, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_call0_v2 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  reducesTo_S10000x128_S10000_d1 : S10000x128.ReducesTo [1] S10000
  h_S_ : 0 < S_.numel
  bcast_S_S10000x1 : S_.BroadcastsInDim S10000x1 (![] : Fin 0 → Fin S10000x1.rank)
  transposes_S10000x128_S128x10000_1_0 : S10000x128.Transposes [1, 0] S128x10000
  bcast_S_S4096x10000 : S_.BroadcastsInDim S4096x10000 (![] : Fin 0 → Fin S4096x10000.rank)
  scatter_S10000x128_S500000x1_S500000x128_1_0_0_1_wf : ScatterDims.WF S10000x128 S500000x1 S500000x128 [1] [0] [0] 1
  scatter_S10000_S500000x1_S500000_n_0_0_1_wf : ScatterDims.WF S10000 S500000x1 S500000 [] [0] [0] 1
  dot_S4096x128_S128x10000_S4096x10000_1_0_0_1_n_n_wf : DotDims.WF S4096x128 S128x10000 S4096x10000 [1] [0] [0] [1] [] []

variable [Facts₀]

def scatter_S10000x128_S500000x1_S500000x128_1_0_0_1 : ScatterDims S10000x128 S500000x1 S500000x128 where
  updateWindowDims := [1]
  insertedWindowDims := [0]
  scatterDimsToOperandDims := [0]
  indexVectorDim := 1
  wf := scatter_S10000x128_S500000x1_S500000x128_1_0_0_1_wf
def scatter_S10000_S500000x1_S500000_n_0_0_1 : ScatterDims S10000 S500000x1 S500000 where
  updateWindowDims := []
  insertedWindowDims := [0]
  scatterDimsToOperandDims := [0]
  indexVectorDim := 1
  wf := scatter_S10000_S500000x1_S500000_n_0_0_1_wf
def dot_S4096x128_S128x10000_S4096x10000_1_0_0_1_n_n : DotDims S4096x128 S128x10000 S4096x10000 where
  lhsContracting := [1]
  rhsContracting := [0]
  lhsNonContracting := [0]
  rhsNonContracting := [1]
  lhsBatch := []
  rhsBatch := []
  wf := dot_S4096x128_S128x10000_S4096x10000_1_0_0_1_n_n_wf

class Facts : Prop extends Facts₀ where

variable [Facts]
-- ==== Proof.Logits.lean ====
/-
  The function both programs compute, stated once over literal shapes and importing neither program.

  For a query matrix `x` (4096 rows of 128 numbers) and a bank `v` of 10000 unit directions (128 numbers
  each), the entry (r, s) of the result is the inner product of row r of `x` with row s of `v`, divided
  by the temperature. Everything is read over the extended reals, where the sum and the products are the
  exact ones and the quotient is the library's total `Ideal.div`.
-/
import Idealize.ShloMosaic.PureOps.Ideal
import Idealize.ShloMosaic.Lib.ValueIdx

noncomputable section

namespace Cert.Logits

open Idealize.ShloMosaic Idealize.ShloMosaic.ValueIdx

/-- The temperature: the float word both programs divide by (the single-precision number nearest 0.07),
    at its exact binary value. The same word on both sides, so it is never evaluated. -/
abbrev temperature : EReal := Ideal.ofBits .f32 0x3D8F5C29#32

/-- Entry (r, s): the inner product over the 128 features of row r of `x` and row s of `v`, over the
    temperature. -/
def logits (x : (⟨2, ![4096, 128]⟩ : Shape).Idx → EReal) (v : (⟨2, ![10000, 128]⟩ : Shape).Idx → EReal) :
    (⟨2, ![4096, 10000]⟩ : Shape).Idx → EReal :=
  fun i => Ideal.div (∑ k : Fin 128, x (ix2 (i 0) k) * v (ix2 (i 1) k)) temperature

theorem logits_apply (x : (⟨2, ![4096, 128]⟩ : Shape).Idx → EReal) (v : (⟨2, ![10000, 128]⟩ : Shape).Idx → EReal)
    (r : Fin 4096) (s : Fin 10000) :
    logits x v (ix2 r s) = Ideal.div (∑ k : Fin 128, x (ix2 r k) * v (ix2 s k)) temperature := rfl

end Cert.Logits

end
-- ==== Proof.RefLogits.lean ====
/-
  The reference's last four operations — transpose the bank, contract the feature axis against the
  queries, splat the temperature, divide — read at an output index (r, s): the transposed bank at
  (k, s) is the bank at (s, k), so the contraction is the inner product of row r of the queries with
  row s of the bank, and the quotient is by the temperature. That is `Logits.logits` of the queries
  and of whatever the earlier operations made the bank.
-/
import proofs.«105298_j8873402433953_2_alg».proof.Proof.Gen.ReferenceIdeal.Read
import proofs.«105298_j8873402433953_2_alg».proof.Proof.Logits

noncomputable section

namespace Cert.ReferenceIdeal.RefValue

open Cert.ReferenceIdeal Cert.ReferenceIdeal.Read Idealize.ShloMosaic Idealize.ShloMosaic.ValueIdx Cert.Logits

/-- The reference's result is the scaled inner products of the queries with the bank its first
    seventeen operations build (`val_main_v16`: segment means of the memory rows, each normalized). -/
theorem result_eq (x0 : (⟨S4096x128, .f32⟩ : BufTy).Contents (Elt Ideal))
    (x3 : (⟨S500000x128, .f32⟩ : BufTy).Contents (Elt Ideal)) (x4 : (⟨S500000, .i32⟩ : BufTy).Contents (Elt Ideal)) :
    val_main_v20 (F := Ideal) x0 x3 x4 = logits x0 (val_main_v16 (F := Ideal) x3 x4) := by
  funext i
  rw [val_main_v20_apply, val_main_v18_apply, val_main_v19_apply, val_main_cst_4_apply]
  unfold logits
  simp only [Ideal.hostDivf_def, Ideal.ofBits_def]
  refine congrArg (Ideal.div · _) (Finset.sum_congr rfl fun k _ => ?_)
  rw [val_main_v17_apply]
  have el : lidx_main_v18 i k = ix2 (i 0) k :=
    funext fun a => Fin.ext (by match a with | ⟨0, _⟩ => rfl | ⟨1, _⟩ => rfl)
  have er : idx_main_v17 (ridx_main_v18 i k) = ix2 (i 1) k :=
    funext fun a => Fin.ext (by match a with | ⟨0, _⟩ => rfl | ⟨1, _⟩ => rfl)
  rw [el, er]
  rfl

end Cert.ReferenceIdeal.RefValue

end
-- ==== Proof.TileProduct.lean ====
/-
  One grid step of the kernel, read at an entry of its output tile.

  The body loads a tile of 2048 query rows and a tile of 1280 bank rows (128 features each), narrows
  both to half precision (at the ideal values a change of format changes nothing), contracts the
  feature axis of the one against the feature axis of the other into a zero accumulator, and divides
  every entry by the temperature. So entry (p, q) of the stored tile is the inner product of query row p
  with bank row q of the two loaded tiles, over the temperature.
-/
import proofs.«105298_j8873402433953_2_alg».proof.Proof.Gen.KernelIdeal.Skeleton
import proofs.«105298_j8873402433953_2_alg».proof.Proof.Logits
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The contraction's left operand is read at (row of the output, feature); -/
theorem lhs_row (i : S2048x1280.Idx) (k : dot_S2048x128_S1280x128_S2048x1280_1_1_0_0_n_n.contr.Idx) :
    (dot_S2048x128_S1280x128_S2048x1280_1_1_0_0_n_n.lhsIdx i k 0).val = (i 0).val := by
  unfold DotDims.lhsIdx
  rw [dif_neg (show ¬(0 : Fin S2048x128.rank) ∈ dot_S2048x128_S1280x128_S2048x1280_1_1_0_0_n_n.lhsBatch by decide),
    dif_pos (show (0 : Fin S2048x128.rank) ∈ dot_S2048x128_S1280x128_S2048x1280_1_1_0_0_n_n.lhsNonContracting by decide)]
  rfl
theorem lhs_feature (i : S2048x1280.Idx) (k : dot_S2048x128_S1280x128_S2048x1280_1_1_0_0_n_n.contr.Idx) :
    (dot_S2048x128_S1280x128_S2048x1280_1_1_0_0_n_n.lhsIdx i k 1).val = (k ⟨0, by decide⟩).val :=
  dot_S2048x128_S1280x128_S2048x1280_1_1_0_0_n_n.lhsIdx_val_of_single rfl i k
/-- the right operand — the bank tile, NOT transposed: its rows are the output's columns — at (column of
    the output, feature). -/
theorem rhs_row (i : S2048x1280.Idx) (k : dot_S2048x128_S1280x128_S2048x1280_1_1_0_0_n_n.contr.Idx) :
    (dot_S2048x128_S1280x128_S2048x1280_1_1_0_0_n_n.rhsIdx i k 0).val = (i 1).val := by
  unfold DotDims.rhsIdx
  rw [dif_neg (show ¬(0 : Fin S1280x128.rank) ∈ dot_S2048x128_S1280x128_S2048x1280_1_1_0_0_n_n.rhsBatch by decide),
    dif_pos (show (0 : Fin S1280x128.rank) ∈ dot_S2048x128_S1280x128_S2048x1280_1_1_0_0_n_n.rhsNonContracting by decide)]
  rfl
theorem rhs_feature (i : S2048x1280.Idx) (k : dot_S2048x128_S1280x128_S2048x1280_1_1_0_0_n_n.contr.Idx) :
    (dot_S2048x128_S1280x128_S2048x1280_1_1_0_0_n_n.rhsIdx i k 1).val = (k ⟨0, by decide⟩).val :=
  dot_S2048x128_S1280x128_S2048x1280_1_1_0_0_n_n.rhsIdx_val_of_single rfl i k

/-- The contraction into the zero accumulator, at entry (p, q): the inner product of row p of the left
    operand with row q of the right one. -/
theorem contraction_apply (a : FVec Ideal S2048x128 .bf16) (b : FVec Ideal S1280x128 .bf16) (p : Fin 2048) (q : Fin 1280) :
    FloatOps.matmul dot_S2048x128_S1280x128_S2048x1280_1_1_0_0_n_n none a b (constant S2048x1280 .f32 0x00000000#32) (ix2 p q)
      = ∑ k : Fin 128, a (ix2 p k) * b (ix2 q k) := by
  rw [Ideal.matmul_constant_zero_apply,
    ← Equiv.sum_comp (contrEquiv1 dot_S2048x128_S1280x128_S2048x1280_1_1_0_0_n_n 128 rfl rfl).symm]
  refine Finset.sum_congr rfl fun k _ => ?_
  have hk := contrEquiv1_symm_val dot_S2048x128_S1280x128_S2048x1280_1_1_0_0_n_n 128 rfl rfl k
  have el : dot_S2048x128_S1280x128_S2048x1280_1_1_0_0_n_n.lhsIdx (ix2 p q)
      ((contrEquiv1 dot_S2048x128_S1280x128_S2048x1280_1_1_0_0_n_n 128 rfl rfl).symm k) = ix2 p k :=
    funext fun d => Fin.ext (by
      match d with
      | ⟨0, _⟩ => exact lhs_row _ _
      | ⟨1, _⟩ => exact (lhs_feature _ _).trans hk)
  have er : dot_S2048x128_S1280x128_S2048x1280_1_1_0_0_n_n.rhsIdx (ix2 p q)
      ((contrEquiv1 dot_S2048x128_S1280x128_S2048x1280_1_1_0_0_n_n 128 rfl rfl).symm k) = ix2 q k :=
    funext fun d => Fin.ext (by
      match d with
      | ⟨0, _⟩ => exact rhs_row _ _
      | ⟨1, _⟩ => exact (rhs_feature _ _).trans hk)
  rw [el, er]

/-- Entry (p, q) of the tile one grid step stores, from the two tiles it loaded. -/
theorem tile_apply (x0 : Vec Ideal S2048x128 .f32) (x1 : Vec Ideal S1280x128 .f32) (p : Fin 2048) (q : Fin 1280) :
    k0_pay1 (F := Ideal) x0 x1 (ix2 p q)
      = Ideal.div (∑ k : Fin 128, x0 (ix2 p k) * x1 (ix2 q k)) Cert.Logits.temperature := by
  unfold k0_pay1
  refine (divf_apply _ _ _).trans ?_
  refine congrArg₂ Ideal.div ?_ rfl
  refine (contraction_apply _ _ p q).trans ?_
  refine Finset.sum_congr rfl fun k _ => ?_
  exact congrArg₂ (· * ·) rfl (congrFun (shapeCast_self x1 shapeCasts_S1280x128_S1280x128) (ix2 q k))

end Cert.KernelIdeal.Tile

end
-- ==== Proof.PaddedBank.lean ====
/-
  What the kernel's launch finds in the bank buffer.

  Before the launch the kernel's host code builds the bank exactly as the reference does — per group the
  sum of its memory rows over the larger of its count and one, then each such mean over the larger of its
  Euclidean norm and 1e-12: operation for operation and literal for literal the same seventeen
  operations — and then appends 240 rows of the padding value (the integer zero converted to a float)
  so that the row count, 10240, is a multiple of the tile height. So the buffer holds the padding of the
  reference's own bank stage, and a row below 10000 of it is that row of the bank; the appended rows
  are never needed, because the result has only 10000 columns.
-/
import proofs.«105298_j8873402433953_2_alg».proof.Proof.Gen.KernelIdeal.Frame
import proofs.«105298_j8873402433953_2_alg».proof.Proof.Gen.ReferenceIdeal.Read
import Idealize.ShloMosaic.Lib.StableHlo.Run
import Idealize.ShloMosaic.Lib.KernelVsHost
import Idealize.ShloMosaic.Lib.ValueIdx

noncomputable section

namespace Cert.KernelIdeal.Bank

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The bank of unit directions, as a function of the memory rows and their group ids on device `c`:
    the reference's stage of that name, read at the kernel's argument arrays. -/
def bank (c : Dev nD) : S10000x128.Idx → EReal :=
  Cert.ReferenceIdeal.Read.val_main_v16 (F := Ideal) (m ((c : Thread nD τ).loc main_arg3)) (m ((c : Thread nD τ).loc main_arg4))

set_option maxHeartbeats 2000000 in
/-- At the launch the padded buffer holds the bank followed by 240 rows of the padding value: the kernel's
    host operations before the launch, composed, are the reference's, then the padding. -/
theorem padded_eq (c : Dev nD) :
    (V m c main_v17 : S10240x128.Idx → EReal)
      = pad S10240x128 ![0, 0] ![240, 0] ![0, 0] (bank m c)
          (sitofp (F := Ideal) .f32 (constantI S_ 32 0#32)) pads_S10000x128_S10240x128_02400_000 h_S_ := by
  unfold bank
  dsimp only [Gen.V]
  simp only [Gen.hostOps0, Gen.hostOps0_1, Gen.hostOps0_2, Gen.hostOps0_3, List.flatten_cons, List.flatten_nil, List.append_nil,
    List.cons_append, List.nil_append]
  after_results_simp
  rfl

/-- A row of the padded buffer that is a row of the bank (its number below 10000) holds that row. -/
theorem padded_row (c : Dev nD) (j : S10240x128.Idx) (s : Fin 10000) (k : Fin 128)
    (h0 : (j 0).val = s.val) (h1 : (j 1).val = k.val) :
    V m c main_v17 j = bank m c (ix2 s k) := by
  rw [padded_eq]
  refine pad_apply_of_inside _ _ _ _ _ _ _ j (ix2 s k) fun a => ?_
  match a with
  | ⟨0, _⟩ => show (j 0).val = 0 + s.val * (0 + 1); omega
  | ⟨1, _⟩ => show (j 1).val = 0 + k.val * (0 + 1); omega

end Cert.KernelIdeal.Bank

end
-- ==== Proof.Tiles.lean ====
/-
  From the sixteen tiles to the whole result.

  The launch runs over a 2 × 8 grid. At point (a, b) the body is handed rows 2048·a … 2048·a + 2047 of the
  queries and rows 1280·b … 1280·b + 1279 of the padded bank, and its tile is written back to rows
  2048·a …, columns 1280·b … of the result — all 1280 columns for b ≤ 6, and for b = 7 only the first
  1040, the ones below 10000. A column below 10000 of the padded bank is a row of the bank itself, so every
  entry written back is the scaled inner product `Logits.logits` of the queries and the bank at that entry's
  own position in the result; and every position of the result lies in the tile of the point
  (row / 2048, column / 1280). So the result array ends holding `Logits.logits` of the queries and the bank.
-/
import proofs.«105298_j8873402433953_2_alg».proof.Proof.Gen.KernelIdeal.Value
import proofs.«105298_j8873402433953_2_alg».proof.Proof.TileProduct
import proofs.«105298_j8873402433953_2_alg».proof.Proof.PaddedBank
import proofs.«105298_j8873402433953_2_alg».proof.Proof.Logits

noncomputable section

namespace Cert.KernelIdeal.Tiles

open Cert.KernelIdeal Cert.KernelIdeal.Gen Cert.KernelIdeal.Value Cert.KernelIdeal.Tile Cert.KernelIdeal.Bank
open Idealize.ShloMosaic Idealize.ShloMosaic.TcCoe Idealize.SL.Sem Idealize.ShloMosaic.ValueIdx Cert.Logits
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- A stored tile against the whole result, over plain vectors: if row `y 0` of the loaded query tile is
    row `i 0` of the queries and row `y 1` of the loaded bank tile is row `i 1` of the bank, then entry `y`
    of the tile is entry `i` of the scaled inner products. -/
theorem tile_entry (X : S4096x128.Idx → EReal) (B : S10000x128.Idx → EReal)
    (x0 : Vec Ideal S2048x128 .f32) (x1 : Vec Ideal S1280x128 .f32) (y : S2048x1280.Idx) (i : S4096x10000.Idx)
    (h0 : ∀ k : Fin 128, x0 (ix2 (y 0) k) = X (ix2 (i 0) k))
    (h1 : ∀ k : Fin 128, x1 (ix2 (y 1) k) = B (ix2 (i 1) k)) :
    k0_pay1 (F := Ideal) x0 x1 y = logits X B i := by
  obtain ⟨p, q, rfl⟩ : ∃ (p : Fin 2048) (q : Fin 1280), y = ix2 p q := ⟨y 0, y 1, eq_ix2 y⟩
  obtain ⟨r, s, rfl⟩ : ∃ (r : Fin 4096) (s : Fin 10000), i = ix2 r s := ⟨i 0, i 1, eq_ix2 i⟩
  rw [tile_apply, logits_apply]
  exact congrArg₂ Ideal.div (Finset.sum_congr rfl fun k _ => congrArg₂ (· * ·) (h0 k) (h1 k)) rfl

/-- The three index maps over the sixteen points: the query tile follows the result tile's row index, the
    bank tile its column index, both start at feature 0; there are 2 row indices and 8 column indices. -/
theorem index_facts : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 1
    ∧ win0_2.index t (1 : Fin 2) ≤ 7 :=
  (by decide +kernel : ∀ t : Fin grid0.N, _)

/-- How much of a tile is written back: all 2048 rows; all 1280 columns, but 1040 in the last column of
    tiles, which would otherwise run past column 9999. -/
theorem extent_facts : ∀ t : Fin cfg0.N,
    win0_2.xsize (grid0.coords t) (0 : Fin 2) = 2048
    ∧ (win0_2.index t (1 : Fin 2) ≤ 6 → win0_2.xsize (grid0.coords t) (1 : Fin 2) = 1280)
    ∧ (win0_2.index t (1 : Fin 2) = 7 → win0_2.xsize (grid0.coords t) (1 : Fin 2) = 1040) :=
  (by decide +kernel : ∀ t : Fin grid0.N, _)

/-- Every pair (row index, column index) is some point's. -/
theorem index_onto : ∀ (a : Fin 2) (b : Fin 8), ∃ t : Fin cfg0.N, win0_2.index t = ![a.val, b.val] :=
  (by decide +kernel : ∀ (a : Fin 2) (b : Fin 8), ∃ t : Fin grid0.N, win0_2.index t = ![a.val, b.val])

/-- What point `t` writes back is its tile of the scaled inner products of the queries and the bank. -/
theorem flushed_eq (c : Dev nD) (t : Fin cfg0.N) :
    (dats m 0 c).flushed 2 t
      = ((cfg0.win 2).blk t).view.read (Elt Ideal) (logits (V m c main_arg0) (bank m c)) := by
  rw [Value.flushed2]
  unfold out0_2
  rw [View.canon_unit_zero zero_offsets]
  simp only [View.ld_unit_zero (S := S2048x128) zero_offsets, View.ld_unit_zero (S := S1280x128) zero_offsets]
  obtain ⟨e0, e1, e2, e3, e4, e5⟩ := index_facts t
  funext j
  show k0_pay1 (F := Ideal) (iblk m c 0 t) (iblk m c 1 t) (win0_2.xinj (grid0.coords t) j)
    = logits (V m c main_arg0) (bank m c) (((cfg0.win 2).blk t).view.emb j)
  refine tile_entry (V m c main_arg0) (bank m c) (iblk m c 0 t) (iblk m c 1 t) (win0_2.xinj (grid0.coords t) j)
    (((cfg0.win 2).blk t).view.emb j) (fun k => ?_) (fun k => ?_)
  · -- the query tile's row is the result's row; its features are the queries' features
    show V m c main_arg0 (((cfg0.win 0).blk t).view.emb (ix2 (win0_2.xinj (grid0.coords t) j 0) k))
      = V m c main_arg0 (ix2 (((cfg0.win 2).blk t).view.emb j 0) k)
    refine congrArg (V m c main_arg0) (funext fun a => Fin.ext ?_)
    match a with
    | ⟨0, _⟩ =>
      show win0_0.index t (0 : Fin 2) * 2048 + 1 * (j 0).val = win0_2.index t (0 : Fin 2) * 2048 + 1 * (j 0).val
      omega
    | ⟨1, _⟩ =>
      show win0_0.index t (1 : Fin 2) * 128 + 1 * k.val = k.val
      omega
  · -- the bank tile's row is the result's column, a row of the bank proper
    show V m c main_v17 (((cfg0.win 1).blk t).view.emb (ix2 (win0_2.xinj (grid0.coords t) j 1) k))
      = bank m c (ix2 (((cfg0.win 2).blk t).view.emb j 1) k)
    refine padded_row m c _ _ k ?_ ?_
    · show win0_1.index t (0 : Fin 2) * 1280 + 1 * (j 1).val = win0_2.index t (1 : Fin 2) * 1280 + 1 * (j 1).val
      omega
    · show win0_1.index t (1 : Fin 2) * 128 + 1 * k.val = k.val
      omega

/-- A position of the result is in point `t`'s written-back tile iff on each axis it is at or past the
    tile's start and within the written-back extent. -/
theorem mem_tile (t : Fin cfg0.N) (i : S4096x10000.Idx) :
    i ∈ ((cfg0.win 2).blk t).view.set ↔ ∀ a : Fin 2, win0_2.index t a * S2048x1280.size a ≤ (i a).val
      ∧ (i a).val < win0_2.index t a * S2048x1280.size a + win0_2.xsize (grid0.coords t) a := by
  show i ∈ ((View.whole main_v18).slice (win0_2.rect t)).set ↔ _
  rw [View.set_slice_whole, Rect.mem_set_unit]
  exact Iff.rfl

/-- Every position of the result is in the written-back tile of the point (row / 2048, column / 1280). -/
theorem covered (i : S4096x10000.Idx) :
    ∃ t : Fin cfg0.N, (cfg0.win 2).flush t = true ∧ i ∈ ((cfg0.win 2).blk t).view.set := by
  have hi0 : (i 0).val < 4096 := (i 0).isLt
  have hi1 : (i 1).val < 10000 := (i 1).isLt
  obtain ⟨t, ht⟩ := index_onto ⟨(i 0).val / 2048, by omega⟩ ⟨(i 1).val / 1280, by omega⟩
  have q0 : win0_2.index t (0 : Fin 2) = (i 0).val / 2048 := congrFun ht 0
  have q1 : win0_2.index t (1 : Fin 2) = (i 1).val / 1280 := congrFun ht 1
  obtain ⟨x0, x1, x2⟩ := extent_facts t
  refine ⟨t, flush0_2 t, ?_⟩
  rw [mem_tile]
  intro a
  match a with
  | ⟨0, _⟩ =>
    show win0_2.index t (0 : Fin 2) * 2048 ≤ (i 0).val
      ∧ (i 0).val < win0_2.index t (0 : Fin 2) * 2048 + win0_2.xsize (grid0.coords t) (0 : Fin 2)
    omega
  | ⟨1, _⟩ =>
    show win0_2.index t (1 : Fin 2) * 1280 ≤ (i 1).val
      ∧ (i 1).val < win0_2.index t (1 : Fin 2) * 1280 + win0_2.xsize (grid0.coords t) (1 : Fin 2)
    by_cases h : win0_2.index t (1 : Fin 2) ≤ 6
    · have := x1 h; omega
    · have := x2 (by omega); omega

/-- The result array after the launch: the scaled inner products of the queries and the bank. -/
theorem final (c : Dev nD) :
    (dats m 0 c).arrAt 2 cfg0.N = logits (m ((c : Thread nD τ).loc main_arg0)) (bank m c) := by
  rw [← V_main_arg0 m c]
  exact (dats m 0 c).arrAt_eq_of_cover 2 (logits (V m c main_arg0) (bank m c)) (fun t _ => flushed_eq m c t) covered

/-- The kernel's run with its result named: every weakly fair execution terminates with the result buffer
    at the scaled inner products of the queries with the bank, and the arguments unchanged. -/
theorem run : θ_run defs (onTc (τ := τ) (main (F := Ideal))) ⟨m, fun _ => 0, ρ⟩ fun r => ∀ c : Dev nD,
      r.2.mem ((c : Thread nD τ).loc main_v18) = logits (m ((c : Thread nD τ).loc main_arg0)) (bank m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Tiles

end
-- ==== Proof.lean ====
/-
  The kernel and its reference compute the same 4096 × 10000 table of scaled similarities.

  Both programs first build, on the host and by the very same operations, a bank of 10000 unit directions
  from the memory rows and their group ids (per group the mean of its rows, normalized). The reference then
  multiplies the queries by the transposed bank and divides by the temperature. The kernel pads the bank
  to 10240 rows and computes the same products tile by tile — 2048 query rows against 1280 bank rows at each
  of 2 × 8 grid points, the features contracted in one step, each tile divided by the same temperature —,
  writing back only the part of each tile that lies inside the 10000 columns.

  Over the extended reals an entry (r, s) of either result is the sum over the 128 features of
  x(r, k) · bank(s, k), divided by the temperature: the kernel's contraction pairs the feature axes of its
  two tiles directly, the reference's pairs the queries' feature axis with the transposed bank's row axis,
  and the two sums have the same terms in the same order. No law of arithmetic beyond that is used, so the
  precondition (finite inputs) is never opened; the 240 padding rows are never read by a written-back
  entry. The kernel's idealization rewrote nothing, so that claim is trivial.

  `Logits` states the common function; `RefLogits` reads the reference's run as that function; `TileProduct`
  reads one grid step at an entry; `PaddedBank` reads the padded buffer the launch finds; `Tiles` assembles
  the sixteen written-back tiles into the whole result.
-/
import proofs.«105298_j8873402433953_2_alg».proof.Defs
import proofs.«105298_j8873402433953_2_alg».proof.Proof.Gen.Kernel
import proofs.«105298_j8873402433953_2_alg».proof.Proof.Gen.Kernel.Frame
import proofs.«105298_j8873402433953_2_alg».proof.Proof.Gen.KernelIdeal
import proofs.«105298_j8873402433953_2_alg».proof.Proof.Gen.KernelIdeal.Frame
import proofs.«105298_j8873402433953_2_alg».proof.Proof.Gen.KernelIdeal.Value
import proofs.«105298_j8873402433953_2_alg».proof.Proof.Gen.ReferenceIdeal
import proofs.«105298_j8873402433953_2_alg».proof.Proof.Gen.ReferenceIdeal.Run
import proofs.«105298_j8873402433953_2_alg».proof.Proof.Gen.ReferenceIdeal.Read
import proofs.«105298_j8873402433953_2_alg».proof.Proof.Gen.Pre_finite_inputs
import proofs.«105298_j8873402433953_2_alg».proof.Proof.RefLogits
import proofs.«105298_j8873402433953_2_alg».proof.Proof.Tiles
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories that agree on the arguments both programs end with the scaled inner products of the
    queries with the bank built from the memory rows and group ids: the kernel by its sixteen tiles
    (`Tiles.run`), the reference by its run read as that function (`RefValue.result_eq`). -/
theorem algebraic : Cert.algebraic_KernelIdeal_ReferenceIdeal := by
  intro m ρ m' ρ' _ hagree
  refine ⟨fun c => Cert.Logits.logits (m ((c.tc : Thread Cert.KernelIdeal.nD Cert.KernelIdeal.τ).loc Cert.KernelIdeal.main_arg0))
    (Cert.KernelIdeal.Bank.bank m c), Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
